-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x2048 : Shape := ⟨2, ![512, 2048]⟩
abbrev S2048 : Shape := ⟨1, ![2048]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S512x2048 .f32) (main_arg6 : FVec F S2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S32768x512 .f32) (main_arg1 : FVec F S32768x512 .f32) (main_arg2 : FVec F S32768x512 .f32) (main_arg3 : FVec F S512x2048 .f32) (main_arg4 : FVec F S2048 .f32) (main_arg5 : FVec F S512x2048 .f32) (main_arg6 : FVec F S2048 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_v13 main_v16
-- ==== Kernel.lean ====
abbrev S32768x512 : Shape := ⟨2, ![32768, 512]⟩
abbrev S512x2048 : Shape := ⟨2, ![512, 2048]⟩
abbrev S2048 : Shape := ⟨1, ![2048]⟩
abbrev S1024x2048 : Shape := ⟨2, ![1024, 2048]⟩
abbrev S1x2048 : Shape := ⟨2, ![1, 2048]⟩
abbrev S1024x512 : Shape := ⟨2, ![1024, 512]⟩
abbrev S1024x1024 : Shape := ⟨2, ![1024, 1024]⟩

abbrev nBuf : Space → Nat
  | .hbm => 14
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x2048, .f32⟩
  | .hbm, ⟨4, _⟩ => ⟨S2048, .f32⟩
  | .hbm, ⟨5, _⟩ => ⟨S512x2048, .f32⟩
  | .hbm, ⟨6, _⟩ => ⟨S2048, .f32⟩
  | .hbm, ⟨7, _⟩ => ⟨S512x2048, .bf16⟩
  | .hbm, ⟨8, _⟩ => ⟨S512x2048, .bf16⟩
  | .hbm, ⟨9, _⟩ => ⟨S1024x2048, .bf16⟩
  | .hbm, ⟨10, _⟩ => ⟨S2048, .f32⟩
  | .hbm, ⟨11, _⟩ => ⟨S1x2048, .f32⟩
  | .hbm, ⟨12, _⟩ => ⟨S32768x512, .f32⟩
  | .hbm, ⟨13, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | .local _ .vmem, ⟨7, _⟩ => ⟨S1x2048, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  concatenates_S512x2048_S512x2048_S1024x2048_d0 : Shape.Concatenates [S512x2048, S512x2048] S1024x2048 0
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  concatenates_S1024x512_S1024x512_S1024x1024_d1 : Shape.Concatenates [S1024x512, S1024x512] S1024x1024 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  slices_S1024x2048_o0_0_S1024x512 : S1024x2048.Slices ![0, 0] S1024x512
  slices_S1024x2048_o0_512_S1024x512 : S1024x2048.Slices ![0, 512] S1024x512
  slices_S1024x2048_o0_1024_S1024x512 : S1024x2048.Slices ![0, 1024] S1024x512
  slices_S1024x2048_o0_1536_S1024x512 : S1024x2048.Slices ![0, 1536] S1024x512
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S32768x512.size a
  hwx0_2 : ∀ i : grid0.Coords, EltTy.bits .f32 = 32 ∨ (Rect.block (s := S32768x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S32768x512.size a
  hwx0_5 : ∀ i : grid0.Coords, EltTy.bits .f32 = 32 ∨ (Rect.block (s := S32768x512) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S32768x512.size a
  hwx0_6 : ∀ i : grid0.Coords, EltTy.bits .f32 = 32 ∨ (Rect.block (s := S32768x512) S1024x512.size (cc0_transform_6 i) (hinb0_6 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x2048 : Shape := ⟨2, ![512, 2048]⟩
abbrev S2048 : Shape := ⟨1, ![2048]⟩
abbrev S32768x2048 : Shape := ⟨2, ![32768, 2048]⟩
abbrev S1x2048 : Shape := ⟨2, ![1, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x2048, .f32⟩
  | .hbm, ⟨4, _⟩ => ⟨S2048, .f32⟩
  | .hbm, ⟨5, _⟩ => ⟨S512x2048, .f32⟩
  | .hbm, ⟨6, _⟩ => ⟨S2048, .f32⟩
  | .hbm, ⟨7, _⟩ => ⟨S32768x2048, .f32⟩
  | .hbm, ⟨8, _⟩ => ⟨S1x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S1x2048, .f32⟩
  | .hbm, ⟨14, _⟩ => ⟨S32768x2048, .f32⟩
  | .hbm, ⟨15, _⟩ => ⟨S32768x2048, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  slices_S32768x2048_S32768x512_0_0 : S32768x2048.Slices ![0, 0] S32768x512
  slices_S32768x2048_S32768x512_0_512 : S32768x2048.Slices ![0, 512] S32768x512
  slices_S32768x2048_S32768x512_0_1024 : S32768x2048.Slices ![0, 1024] S32768x512
  slices_S32768x2048_S32768x512_0_1536 : S32768x2048.Slices ![0, 1536] S32768x512
  bcast_S_S32768x512 : S_.BroadcastsInDim S32768x512 (![] : Fin 0 → Fin S32768x512.rank)
  dot_S32768x512_S512x2048_S32768x2048_1_0_0_1_n_n_wf : DotDims.WF S32768x512 S512x2048 S32768x2048 [1] [0] [0] [1] [] []

variable [Facts₀]

def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf

class Facts : Prop extends Facts₀ where

variable [Facts]
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LstmSpec.lean ====
/-
  The long short-term memory cell, as functions of its seven argument arrays over the extended reals.

  With `x, h, C : [32768, 512]`, `Wx, Wh : [512, 2048]` and `bx, bh : [2048]`, the four gates' pre-activation is
  `z (r, c) = ((∑ k, x (r, k) · Wx (k, c) + bx c) + ∑ k, h (r, k) · Wh (k, c)) + bh c`, and with `σ` the logistic
  function the new cell state and hidden state are
  `C' (r, j) = σ (z (r, 512 + j)) · C (r, j) + σ (z (r, j)) · tanh (z (r, 1536 + j))` and
  `h' (r, j) = σ (z (r, 1024 + j)) · tanh (C' (r, j))`.

  The one law between the two arrangements of `z` is that of a commutative monoid: a sum over `1024 = 512 + 512`
  contraction positions whose first half multiplies `x` by `Wx` and whose second half multiplies `h` by `Wh`, plus the
  sum of the two biases, is the pre-activation above. Addition of extended reals is commutative and associative at the
  infinities too, so nothing here asks the entries to be finite.
-/
import Idealize.ShloMosaic.PureOps.Ideal
import Idealize.ShloMosaic.PureOps.Ideal.Laws
import Idealize.ShloMosaic.Lib.ValueIdx

noncomputable section

namespace Cert.LstmSpec

open Idealize.ShloMosaic Idealize.ShloMosaic.ValueIdx

/-- A batch-by-feature matrix `[32768, 512]`, a weight matrix `[512, 2048]` and a bias vector `[2048]` of extended reals. -/
abbrev Act : Type := (⟨2, ![32768, 512]⟩ : Shape).Idx → EReal
abbrev Wgt : Type := (⟨2, ![512, 2048]⟩ : Shape).Idx → EReal
abbrev Bias : Type := (⟨1, ![2048]⟩ : Shape).Idx → EReal

/-- Column `o + j` of the pre-activation: gate `o / 512`'s column `j`. -/
abbrev col (o : Nat) (ho : o + 512 ≤ 2048) (j : Fin 512) : Fin 2048 := ⟨o + j.val, by have := j.isLt; omega⟩

/-- The four gates' pre-activation at row `r`, column `c`. -/
def gate (x h : Act) (Wx Wh : Wgt) (bx bh : Bias) (r : Fin 32768) (c : Fin 2048) : EReal :=
  (((∑ k : Fin 512, x (ix2 r k) * Wx (ix2 k c)) + bx (ix1 c)) + ∑ k : Fin 512, h (ix2 r k) * Wh (ix2 k c)) + bh (ix1 c)

/-- The new cell state at `(r, j)`: forget gate times the old state plus input gate times the candidate. -/
def cellAt (x C h : Act) (Wx : Wgt) (bx : Bias) (Wh : Wgt) (bh : Bias) (r : Fin 32768) (j : Fin 512) : EReal :=
  Ideal.logistic (gate x h Wx Wh bx bh r (col 512 (by decide) j)) * C (ix2 r j)
    + Ideal.logistic (gate x h Wx Wh bx bh r (col 0 (by decide) j)) * Ideal.tanh (gate x h Wx Wh bx bh r (col 1536 (by decide) j))

/-- The new hidden state at `(r, j)`: output gate times `tanh` of the new cell state. -/
def hiddenAt (x C h : Act) (Wx : Wgt) (bx : Bias) (Wh : Wgt) (bh : Bias) (r : Fin 32768) (j : Fin 512) : EReal :=
  Ideal.logistic (gate x h Wx Wh bx bh r (col 1024 (by decide) j)) * Ideal.tanh (cellAt x C h Wx bx Wh bh r j)

/-- The two results as arrays. -/
def cellNew (x C h : Act) (Wx : Wgt) (bx : Bias) (Wh : Wgt) (bh : Bias) : Act := fun i => cellAt x C h Wx bx Wh bh (i 0) (i 1)
def hiddenNew (x C h : Act) (Wx : Wgt) (bx : Bias) (Wh : Wgt) (bh : Bias) : Act := fun i => hiddenAt x C h Wx bx Wh bh (i 0) (i 1)

/-- A sum over `1024` positions is the sum over the first `512` plus the sum over the last `512`. -/
theorem sum_halves {M : Type} [AddCommMonoid M] (f : Fin 1024 → M) :
    ∑ k, f k = (∑ k : Fin 512, f ⟨k.val, by have := k.isLt; omega⟩) + ∑ k : Fin 512, f ⟨512 + k.val, by have := k.isLt; omega⟩ :=
  Fin.sum_univ_add (a := 512) (b := 512) f

/-- The fused arrangement: one contraction of length `1024` whose halves are given (`hl`, `hr`) as the products of
    `x` with `Wx` and of `h` with `Wh`, plus the two biases added first, is the pre-activation. -/
theorem gate_fused (x h : Act) (Wx Wh : Wgt) (bx bh : Bias) (r : Fin 32768) (c : Fin 2048) (f : Fin 1024 → EReal)
    (hl : ∀ k : Fin 512, f ⟨k.val, by have := k.isLt; omega⟩ = x (ix2 r k) * Wx (ix2 k c))
    (hr : ∀ k : Fin 512, f ⟨512 + k.val, by have := k.isLt; omega⟩ = h (ix2 r k) * Wh (ix2 k c)) :
    (∑ k, f k) + (bx (ix1 c) + bh (ix1 c)) = gate x h Wx Wh bx bh r c := by
  rw [sum_halves f, Finset.sum_congr rfl fun k _ => hl k, Finset.sum_congr rfl fun k _ => hr k]
  unfold gate
  abel

/-- The bit pattern of the single-precision one denotes the real number one. -/
theorem ofBits_one_f32 : Ideal.ofBits .f32 0x3F800000#32 = 1 := by
  simp [Ideal.ofBits, Ideal.ieee, -EReal.coe_mul]; norm_num

/-- The logistic function written out with that literal: `1 / (1 + e^(-z))` by the extended reals' division. -/
theorem logistic_expanded (z : EReal) :
    Ideal.div (Ideal.ofBits .f32 0x3F800000#32) (Ideal.ofBits .f32 0x3F800000#32 + Ideal.exp (-z)) = Ideal.logistic z := by
  rw [ofBits_one_f32]; rfl

end Cert.LstmSpec

end
-- ==== Proof.GateTile.lean ====
/-
  One batch tile of the kernel's body, read entry by entry over the extended reals.

  The body puts a `[1024, 512]` tile of `x` and of `h` side by side, multiplies the `[1024, 1024]` result by the stacked
  `[1024, 2048]` weights into a zero accumulator and adds the `[1, 2048]` bias row to every row. At entry `(p, q)` that is
  `∑ k < 1024, (x | h) (p, k) · W (k, q) + b (0, q)`; the side-by-side matrix reads its left operand at columns below
  `512` and its right operand, `512` columns back, from there on (rounding to the narrower float format is the identity
  on extended reals). When the tiles are rows `r₀ …` of `x` and `h`, the stacked weights are `Wx` over `Wh` and the
  bias row is `bx + bh`, this is the four gates' pre-activation at row `r₀ + p`: the contraction of length `1024` splits
  into the two of length `512`.
-/
import proofs.«136453_j16346645529184_2_alg».proof.Proof.Gen.KernelIdeal.Skeleton
import proofs.«136453_j16346645529184_2_alg».proof.Proof.LibPlainMatmul
import proofs.«136453_j16346645529184_2_alg».proof.Proof.LstmSpec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The tile of `x` and the tile of `h` side by side: `[1024, 1024]`. -/
abbrev sideBySide (X H : Vec Ideal S1024x512 .f32) : FVec Ideal S1024x1024 .bf16 :=
  concatenate S1024x1024 1 [⟨S1024x512, truncf .bf16 X bitsLt_bf16_f32⟩, ⟨S1024x512, truncf .bf16 H bitsLt_bf16_f32⟩]
    concatenates_S1024x512_S1024x512_S1024x1024_d1

/-- Its first `512` columns are the tile of `x`. -/
theorem sideBySide_left (X H : Vec Ideal S1024x512 .f32) (p : Fin 1024) (k : Fin 512) :
    sideBySide X H (ix2 p ⟨k.val, by have := k.isLt; omega⟩) = X (ix2 p k) := by
  refine (concatenate_pair_apply_left (t := S1024x1024) (s₁ := S1024x512) (s₂ := S1024x512) (1 : Fin 2)
    (truncf (F := Ideal) .bf16 X bitsLt_bf16_f32) (truncf (F := Ideal) .bf16 H bitsLt_bf16_f32) concatenates_S1024x512_S1024x512_S1024x1024_d1
    (ix2 p (⟨k.val, by have := k.isLt; omega⟩ : Fin 1024)) rfl (ix2 p k) (fun b => ?_)).trans rfl
  match b with
  | ⟨0, _⟩ => rfl
  | ⟨1, _⟩ => rfl

/-- Its last `512` columns are the tile of `h`. -/
theorem sideBySide_right (X H : Vec Ideal S1024x512 .f32) (p : Fin 1024) (k : Fin 512) :
    sideBySide X H (ix2 p ⟨512 + k.val, by have := k.isLt; omega⟩) = H (ix2 p k) := by
  refine (concatenate_pair_apply_right (t := S1024x1024) (s₁ := S1024x512) (s₂ := S1024x512) (1 : Fin 2)
    (truncf (F := Ideal) .bf16 X bitsLt_bf16_f32) (truncf (F := Ideal) .bf16 H bitsLt_bf16_f32) concatenates_S1024x512_S1024x512_S1024x1024_d1
    (ix2 p (⟨512 + k.val, by have := k.isLt; omega⟩ : Fin 1024)) rfl rfl (ix2 p k) (fun b hb => ?_) ?_).trans rfl
  · match b with
    | ⟨0, _⟩ => rfl
    | ⟨1, _⟩ => exact absurd rfl hb
  · show k.val + 512 = 512 + k.val
    omega

/-- The bias row repeated down the tile, at `(p, q)`, is the row's entry `q`. -/
theorem biasRows_apply (B : Vec Ideal S1x2048 .f32) (p : Fin 1024) (q : Fin 2048) :
    broadcastTo S1024x2048 B broadcasts_S1x2048_S1024x2048 (ix2 p q) = B (ix2 0 q) :=
  broadcastTo_apply B broadcasts_S1x2048_S1024x2048 (ix2 p q) (ix2 0 q) (fun a => by
    match a with
    | ⟨0, _⟩ => rfl
    | ⟨1, _⟩ => rfl)

/-- The body's pre-activation tile at `(p, q)`: the contraction of the side-by-side tiles with the stacked weights, plus
    the bias row's entry. -/
theorem preact_apply (X H : Vec Ideal S1024x512 .f32) (W : Vec Ideal S1024x2048 .bf16) (B : Vec Ideal S1x2048 .f32)
    (p : Fin 1024) (q : Fin 2048) :
    k0_pay1 X H W B (ix2 p q) = (∑ k : Fin 1024, sideBySide X H (ix2 p k) * W (ix2 k q)) + B (ix2 0 q) := by
  have hm : FloatOps.matmul dot_S1024x1024_S1024x2048_S1024x2048_1_0_0_1_n_n none (sideBySide X H)
      (shapeCast S1024x2048 W shapeCasts_S1024x2048_S1024x2048 : FVec Ideal S1024x2048 .bf16)
      (constant (F := Ideal) S1024x2048 .f32 0x00000000#32) (ix2 p q)
      = ∑ k : Fin 1024, sideBySide X H (ix2 p k) * W (ix2 k q) := by
    rw [shapeCast_self]
    exact Cert.LibPlainMatmul.matmul_zero_apply (φ₁ := .bf16) (φ₂ := .bf16) dot_S1024x1024_S1024x2048_S1024x2048_1_0_0_1_n_n
      rfl rfl rfl rfl rfl rfl none (sideBySide X H) W p q
  have hb : broadcastTo S1024x2048 (shapeCast S1x2048 B shapeCasts_S1x2048_S1x2048) broadcasts_S1x2048_S1024x2048 (ix2 p q)
      = B (ix2 0 q) := by
    rw [shapeCast_self]
    exact biasRows_apply B p q
  exact congrArg₂ (· + ·) hm hb

end Cert.KernelIdeal.Tile

end
-- ==== Proof.CellTile.lean ====
/-
  What one grid point's body leaves in its two output tiles, as the cell's new state and new hidden state.

  The body's two stores are computed entry by entry from the pre-activation tile: with `z` that tile, the first stores
  `σ (z (p, 512 + j)) · C (p, j) + σ (z (p, j)) · tanh (z (p, 1536 + j))` and the second
  `σ (z (p, 1024 + j)) · tanh` of the first. When the three `[1024, 512]` input tiles are rows `r₀ … r₀ + 1023` of
  `x`, `h` and `C`, the `[1024, 2048]` operand is `Wx` stacked over `Wh` and the `[1, 2048]` operand is the row
  `bx + bh`, these are the specification's new cell state and new hidden state at row `r₀ + p`.
-/
import proofs.«136453_j16346645529184_2_alg».proof.Proof.Gen.KernelIdeal.Value
import proofs.«136453_j16346645529184_2_alg».proof.Proof.GateTile

noncomputable section

namespace Cert.KernelIdeal.Tile

open Cert.KernelIdeal Cert.KernelIdeal.Gen Idealize.ShloMosaic Idealize.ShloMosaic.ValueIdx
open Cert.LstmSpec

/-- Row `r₀ + p` of the batch, for a tile that starts at row `r₀`. -/
abbrev rowAt (r0 : Nat) (hr0 : r0 + 1024 ≤ 32768) (p : Fin 1024) : Fin 32768 := ⟨r0 + p.val, by have := p.isLt; omega⟩

/-- The body's five operands are the tiles of the arguments that start at batch row `r₀`: rows of `x`, `h`, `C`; the
    two weight matrices stacked; the two biases added, as a row. -/
structure TilesOf (X H Cc : Vec Ideal S1024x512 .f32) (W : Vec Ideal S1024x2048 .bf16) (B : Vec Ideal S1x2048 .f32)
    (x C h : Act) (Wx : Wgt) (bx : Bias) (Wh : Wgt) (bh : Bias) (r0 : Nat) (hr0 : r0 + 1024 ≤ 32768) : Prop where
  rows_x : ∀ (p : Fin 1024) (k : Fin 512), X (ix2 p k) = x (ix2 (rowAt r0 hr0 p) k)
  rows_h : ∀ (p : Fin 1024) (k : Fin 512), H (ix2 p k) = h (ix2 (rowAt r0 hr0 p) k)
  rows_C : ∀ (p : Fin 1024) (j : Fin 512), Cc (ix2 p j) = C (ix2 (rowAt r0 hr0 p) j)
  upper : ∀ (k : Fin 512) (q : Fin 2048), W (ix2 ⟨k.val, by have := k.isLt; omega⟩ q) = Wx (ix2 k q)
  lower : ∀ (k : Fin 512) (q : Fin 2048), W (ix2 ⟨512 + k.val, by have := k.isLt; omega⟩ q) = Wh (ix2 k q)
  bias : ∀ q : Fin 2048, B (ix2 0 q) = bx (ix1 q) + bh (ix1 q)

section
variable {X H Cc : Vec Ideal S1024x512 .f32} {W : Vec Ideal S1024x2048 .bf16} {B : Vec Ideal S1x2048 .f32}
  {x C h : Act} {Wx : Wgt} {bx : Bias} {Wh : Wgt} {bh : Bias} {r0 : Nat} {hr0 : r0 + 1024 ≤ 32768}

/-- The pre-activation tile is the pre-activation at the tile's rows. -/
theorem preact_eq_gate (T : TilesOf X H Cc W B x C h Wx bx Wh bh r0 hr0) (p : Fin 1024) (q : Fin 2048) :
    k0_pay1 X H W B (ix2 p q) = gate x h Wx Wh bx bh (rowAt r0 hr0 p) q := by
  rw [preact_apply, T.bias]
  refine gate_fused x h Wx Wh bx bh (rowAt r0 hr0 p) q (fun k => sideBySide X H (ix2 p k) * W (ix2 k q)) (fun k => ?_) (fun k => ?_)
  · show sideBySide X H (ix2 p ⟨k.val, _⟩) * W (ix2 ⟨k.val, _⟩ q) = _
    rw [sideBySide_left, T.rows_x, T.upper]
  · show sideBySide X H (ix2 p ⟨512 + k.val, _⟩) * W (ix2 ⟨512 + k.val, _⟩ q) = _
    rw [sideBySide_right, T.rows_h, T.lower]

/-- The first output tile at `(p, j)` is the new cell state at row `r₀ + p`. -/
theorem cell_tile (T : TilesOf X H Cc W B x C h Wx bx Wh bh r0 hr0) (p : Fin 1024) (j : Fin 512) :
    Value.E5 X H W B Cc (ix2 p j) = cellAt x C h Wx bx Wh bh (rowAt r0 hr0 p) j := by
  have i0 : Value.ix5_0 (ix2 p j) = ix2 p (col 512 (by decide) j) :=
    funext fun a => by match a with | ⟨0, _⟩ => rfl | ⟨1, _⟩ => exact Fin.ext (Nat.add_comm _ _)
  have i1 : Value.ix5_1 (ix2 p j) = ix2 p j :=
    funext fun a => by match a with | ⟨0, _⟩ => rfl | ⟨1, _⟩ => rfl
  have i2 : Value.ix5_2 (ix2 p j) = ix2 p (col 0 (by decide) j) :=
    funext fun a => by match a with | ⟨0, _⟩ => rfl | ⟨1, _⟩ => exact Fin.ext (Nat.zero_add _).symm
  have i3 : Value.ix5_3 (ix2 p j) = ix2 p (col 1536 (by decide) j) :=
    funext fun a => by match a with | ⟨0, _⟩ => rfl | ⟨1, _⟩ => exact Fin.ext (Nat.add_comm _ _)
  show FloatOps.addf (FloatOps.mulf (FloatOps.logistic (k0_pay1 X H W B (Value.ix5_0 (ix2 p j)))) (Cc (Value.ix5_1 (ix2 p j))))
      (FloatOps.mulf (FloatOps.logistic (k0_pay1 X H W B (Value.ix5_2 (ix2 p j)))) (FloatOps.tanh (k0_pay1 X H W B (Value.ix5_3 (ix2 p j))))) = _
  rw [i0, i1, i2, i3, preact_eq_gate T, preact_eq_gate T, preact_eq_gate T, T.rows_C]
  rfl

/-- The second output tile at `(p, j)` is the new hidden state at row `r₀ + p`. -/
theorem hidden_tile (T : TilesOf X H Cc W B x C h Wx bx Wh bh r0 hr0) (p : Fin 1024) (j : Fin 512) :
    Value.E6 X H W B Cc (ix2 p j) = hiddenAt x C h Wx bx Wh bh (rowAt r0 hr0 p) j := by
  have i0 : Value.ix6_0 (ix2 p j) = ix2 p (col 1024 (by decide) j) :=
    funext fun a => by match a with | ⟨0, _⟩ => rfl | ⟨1, _⟩ => exact Fin.ext (Nat.add_comm _ _)
  have i1 : Value.ix6_1 (ix2 p j) = ix2 p (col 512 (by decide) j) :=
    funext fun a => by match a with | ⟨0, _⟩ => rfl | ⟨1, _⟩ => exact Fin.ext (Nat.add_comm _ _)
  have i2 : Value.ix6_2 (ix2 p j) = ix2 p j :=
    funext fun a => by match a with | ⟨0, _⟩ => rfl | ⟨1, _⟩ => rfl
  have i3 : Value.ix6_3 (ix2 p j) = ix2 p (col 0 (by decide) j) :=
    funext fun a => by match a with | ⟨0, _⟩ => rfl | ⟨1, _⟩ => exact Fin.ext (Nat.zero_add _).symm
  have i4 : Value.ix6_4 (ix2 p j) = ix2 p (col 1536 (by decide) j) :=
    funext fun a => by match a with | ⟨0, _⟩ => rfl | ⟨1, _⟩ => exact Fin.ext (Nat.add_comm _ _)
  show FloatOps.mulf (FloatOps.logistic (k0_pay1 X H W B (Value.ix6_0 (ix2 p j))))
      (FloatOps.tanh (FloatOps.addf (FloatOps.mulf (FloatOps.logistic (k0_pay1 X H W B (Value.ix6_1 (ix2 p j)))) (Cc (Value.ix6_2 (ix2 p j))))
        (FloatOps.mulf (FloatOps.logistic (k0_pay1 X H W B (Value.ix6_3 (ix2 p j)))) (FloatOps.tanh (k0_pay1 X H W B (Value.ix6_4 (ix2 p j))))))) = _
  rw [i0, i1, i2, i3, i4, preact_eq_gate T, preact_eq_gate T, preact_eq_gate T, preact_eq_gate T, T.rows_C]
  rfl

end

/-! ## The stores through the whole staging buffers -/

theorem zero_offsets : (![0, 0] : Fin 2 → Nat) = fun _ => 0 := funext fun a => by fin_cases a <;> rfl

/-- What the body leaves in the first output's buffer, entry by entry. -/
theorem cellOut_apply (X H Cc : Vec Ideal S1024x512 .f32) (W : Vec Ideal S1024x2048 .bf16) (B : Vec Ideal S1x2048 .f32)
    (y : S1024x512.Idx) : out0_5 X H Cc W B y = Value.E5 X H W B Cc y := by
  unfold out0_5
  rw [Value.canon5_eq]
  simp only [View.ld_unit_zero (S := S1024x512) zero_offsets, View.ld_unit_zero (S := S1024x2048) zero_offsets,
    View.ld_unit_zero (S := S1x2048) zero_offsets]

/-- What the body leaves in the second output's buffer, entry by entry. -/
theorem hiddenOut_apply (X H Cc : Vec Ideal S1024x512 .f32) (W : Vec Ideal S1024x2048 .bf16) (B : Vec Ideal S1x2048 .f32)
    (y : S1024x512.Idx) : out0_6 X H Cc W B y = Value.E6 X H W B Cc y := by
  unfold out0_6
  rw [Value.canon6_eq]
  simp only [View.ld_unit_zero (S := S1024x512) zero_offsets, View.ld_unit_zero (S := S1024x2048) zero_offsets,
    View.ld_unit_zero (S := S1x2048) zero_offsets]

end Cert.KernelIdeal.Tile

end
-- ==== Proof.TileRows.lean ====
/-
  From the grid's tiles to the whole arrays: the kernel's two result arrays are the cell's new state and new hidden state.

  The grid has `32` points; point `t` reads rows `1024 t … 1024 t + 1023` of `x`, `h` and `C` and the whole of the two
  operands the host prepared before the launch — `Wx` stacked over `Wh` (`[1024, 2048]`) and `bx + bh` as a row
  (`[1, 2048]`) — and writes the same rows of each result. So what point `t` writes back is rows `1024 t …` of the
  specification's arrays, and since the `32` row blocks cover all `32768` rows (row `r` is in block `r / 1024`), each
  result array ends holding the specification's array.
-/
import proofs.«136453_j16346645529184_2_alg».proof.Proof.Gen.KernelIdeal.Value
import proofs.«136453_j16346645529184_2_alg».proof.Proof.CellTile
import Idealize.ShloMosaic.Lib.Pipeline.Value
import Idealize.ShloMosaic.Lib.StableHlo.Run
import Idealize.ShloMosaic.Lib.Tactic

noncomputable section

namespace Cert.KernelIdeal.Rows

open Cert.KernelIdeal Cert.KernelIdeal.Gen Cert.KernelIdeal.Tile Idealize.ShloMosaic Idealize.ShloMosaic.TcCoe Idealize.SL.Sem
open Idealize.ShloMosaic.ValueIdx Idealize.ShloMosaic.StableHlo
open Idealize.ShloMosaic.Pipeline (Dat)
open Cert.LstmSpec

variable (m : (ℓ : Loc nD τ sig) → Buf (Elt Ideal) ℓ) (ρ : Dev nD → PrngReg)

/-- The seven argument arrays on core `c`, as launched. -/
abbrev argx (c : Dev nD) : Act := m ((c : Thread nD τ).loc main_arg0)
abbrev argC (c : Dev nD) : Act := m ((c : Thread nD τ).loc main_arg1)
abbrev argh (c : Dev nD) : Act := m ((c : Thread nD τ).loc main_arg2)
abbrev argWx (c : Dev nD) : Wgt := m ((c : Thread nD τ).loc main_arg3)
abbrev argbx (c : Dev nD) : Bias := m ((c : Thread nD τ).loc main_arg4)
abbrev argWh (c : Dev nD) : Wgt := m ((c : Thread nD τ).loc main_arg5)
abbrev argbh (c : Dev nD) : Bias := m ((c : Thread nD τ).loc main_arg6)

/-- The grid has `32` points. -/
theorem point_lt (t : Fin cfg0.N) : t.val < 32 := lt_of_lt_of_eq t.isLt N_0

/-- The printed index maps over the grid: the batch windows are at block row `t`, block column `0`; the two prepared
    operands are always at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## What the host prepared before the launch -/

/-- The stacked weights: `Wx` over `Wh`. -/
theorem stacked_eq (c : Dev nD) : (V m c main_v2 : S1024x2048.Idx → EReal)
    = concatenate S1024x2048 0 [⟨S512x2048, truncf (F := Ideal) .bf16 (m ((c : Thread nD τ).loc main_arg3)) bitsLt_bf16_f32⟩,
        ⟨S512x2048, truncf (F := Ideal) .bf16 (m ((c : Thread nD τ).loc main_arg5)) bitsLt_bf16_f32⟩]
        concatenates_S512x2048_S512x2048_S1024x2048_d0 := by
  dsimp only [V, hostOps0]; after_results

/-- The bias row: `bx + bh` recast `[2048] → [1, 2048]`. -/
theorem biasRow_eq (c : Dev nD) : (V m c main_v4 : S1x2048.Idx → EReal)
    = shapeCast S1x2048 (addf (F := Ideal) (s := S2048) (φ := .f32) (m ((c : Thread nD τ).loc main_arg4)) (m ((c : Thread nD τ).loc main_arg6)))
        shapeCasts_S2048_S1x2048 := by
  dsimp only [V, hostOps0]; after_results; try rfl

/-! ## The tiles at a point -/

theorem firstRow_le (t : Fin cfg0.N) : 1024 * t.val + 1024 ≤ 32768 := by have := point_lt t; omega

/-- Point `t`'s tile of `x` is rows `1024 t …` of `x`. -/
theorem xTile_apply (c : Dev nD) (t : Fin cfg0.N) (p : Fin 1024) (k : Fin 512) :
    (iblk m c 0 t : Vec Ideal S1024x512 .f32) (ix2 p k)
      = argx m c (ix2 (rowAt (1024 * t.val) (firstRow_le t) p) k) := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t 0 * 1024 + 1 * p.val = 1024 * t.val + p.val; rw [e0]; omega
  | ⟨1, _⟩ => show win0_0.index t 1 * 512 + 1 * k.val = k.val; rw [e1]; omega

/-- Point `t`'s tile of `h` is rows `1024 t …` of `h`. -/
theorem hTile_apply (c : Dev nD) (t : Fin cfg0.N) (p : Fin 1024) (k : Fin 512) :
    (iblk m c 1 t : Vec Ideal S1024x512 .f32) (ix2 p k)
      = argh m c (ix2 (rowAt (1024 * t.val) (firstRow_le t) p) k) := by
  obtain ⟨-, -, e0, e1, -⟩ := index_facts t
  unfold iblk
  rw [View.read_apply]
  show V m c main_arg2 _ = _
  rw [V_main_arg2]
  refine congrArg _ (funext fun a => Fin.ext ?_)
  match a with
  | ⟨0, _⟩ => show win0_1.index t 0 * 1024 + 1 * p.val = 1024 * t.val + p.val; rw [e0]; omega
  | ⟨1, _⟩ => show win0_1.index t 1 * 512 + 1 * k.val = k.val; rw [e1]; omega

/-- Point `t`'s tile of `C` is rows `1024 t …` of `C`. -/
theorem cTile_apply (c : Dev nD) (t : Fin cfg0.N) (p : Fin 1024) (j : Fin 512) :
    (iblk m c 2 t : Vec Ideal S1024x512 .f32) (ix2 p j)
      = argC m c (ix2 (rowAt (1024 * t.val) (firstRow_le t) p) j) := by
  obtain ⟨-, -, -, -, e0, e1, -⟩ := index_facts t
  unfold iblk
  rw [View.read_apply]
  show V m c main_arg1 _ = _
  rw [V_main_arg1]
  refine congrArg _ (funext fun a => Fin.ext ?_)
  match a with
  | ⟨0, _⟩ => show win0_2.index t 0 * 1024 + 1 * p.val = 1024 * t.val + p.val; rw [e0]; omega
  | ⟨1, _⟩ => show win0_2.index t 1 * 512 + 1 * j.val = j.val; rw [e1]; omega

/-- At every point the weight operand is the whole stacked matrix. -/
theorem wTile_apply (c : Dev nD) (t : Fin cfg0.N) (k : Fin 1024) (q : Fin 2048) :
    (iblk m c 3 t : Vec Ideal S1024x2048 .bf16) (ix2 k q) = (V m c main_v2 : S1024x2048.Idx → EReal) (ix2 k q) := by
  obtain ⟨-, -, -, -, -, -, e0, e1, -⟩ := index_facts t
  unfold iblk
  rw [View.read_apply]
  show V m c main_v2 _ = _
  refine congrArg _ (funext fun a => Fin.ext ?_)
  match a with
  | ⟨0, _⟩ => show win0_3.index t 0 * 1024 + 1 * k.val = k.val; rw [e0]; omega
  | ⟨1, _⟩ => show win0_3.index t 1 * 2048 + 1 * q.val = q.val; rw [e1]; omega

/-- At every point the bias operand is the whole bias row. -/
theorem bTile_apply (c : Dev nD) (t : Fin cfg0.N) (q : Fin 2048) :
    (iblk m c 4 t : Vec Ideal S1x2048 .f32) (ix2 0 q) = (V m c main_v4 : S1x2048.Idx → EReal) (ix2 0 q) := by
  obtain ⟨-, -, -, -, -, -, -, -, e0, e1, -⟩ := index_facts t
  unfold iblk
  rw [View.read_apply]
  show V m c main_v4 _ = _
  refine congrArg _ (funext fun a => Fin.ext ?_)
  match a with
  | ⟨0, _⟩ => show win0_4.index t 0 * 1 + 1 * 0 = 0; rw [e0]
  | ⟨1, _⟩ => show win0_4.index t 1 * 2048 + 1 * q.val = q.val; rw [e1]; omega

/-- The stacked matrix's first `512` rows are `Wx`, -/
theorem stacked_upper (c : Dev nD) (k : Fin 512) (q : Fin 2048) :
    (V m c main_v2 : S1024x2048.Idx → EReal) (ix2 ⟨k.val, by have := k.isLt; omega⟩ q)
      = argWx m c (ix2 k q) := by
  rw [stacked_eq]
  refine (concatenate_pair_apply_left (t := S1024x2048) (s₁ := S512x2048) (s₂ := S512x2048) (0 : Fin 2) _ _
    concatenates_S512x2048_S512x2048_S1024x2048_d0 (ix2 (⟨k.val, by have := k.isLt; omega⟩ : Fin 1024) q) rfl (ix2 k q) (fun b => ?_)).trans rfl
  match b with
  | ⟨0, _⟩ => rfl
  | ⟨1, _⟩ => rfl

/-- and its last `512` rows are `Wh`. -/
theorem stacked_lower (c : Dev nD) (k : Fin 512) (q : Fin 2048) :
    (V m c main_v2 : S1024x2048.Idx → EReal) (ix2 ⟨512 + k.val, by have := k.isLt; omega⟩ q)
      = argWh m c (ix2 k q) := by
  rw [stacked_eq]
  refine (concatenate_pair_apply_right (t := S1024x2048) (s₁ := S512x2048) (s₂ := S512x2048) (0 : Fin 2) _ _
    concatenates_S512x2048_S512x2048_S1024x2048_d0 (ix2 (⟨512 + k.val, by have := k.isLt; omega⟩ : Fin 1024) q) rfl rfl (ix2 k q)
    (fun b hb => ?_) ?_).trans rfl
  · match b with
    | ⟨0, _⟩ => exact absurd rfl hb
    | ⟨1, _⟩ => rfl
  · show k.val + 512 = 512 + k.val
    omega

/-- The bias row's entry `q` is `bx q + bh q`. -/
theorem biasRow_apply (c : Dev nD) (q : Fin 2048) :
    (V m c main_v4 : S1x2048.Idx → EReal) (ix2 0 q)
      = argbx m c (ix1 q) + argbh m c (ix1 q) := by
  rw [biasRow_eq]
  refine (shapeCast_apply _ shapeCasts_S2048_S1x2048 (ix2 0 q) (ix1 q) ?_).trans rfl
  rw [Shape.rowMajor_val_one, Shape.rowMajor_val_two]
  show q.val = 0 * 2048 + q.val
  omega

/-- So the body's operands at point `t` are the tiles of the arguments that start at row `1024 t`. -/
theorem tilesOf (c : Dev nD) (t : Fin cfg0.N) :
    TilesOf (iblk m c 0 t) (iblk m c 1 t) (iblk m c 2 t) (iblk m c 3 t) (iblk m c 4 t)
      (argx m c) (argC m c) (argh m c) (argWx m c) (argbx m c) (argWh m c) (argbh m c) (1024 * t.val) (firstRow_le t) where
  rows_x := xTile_apply m c t
  rows_h := hTile_apply m c t
  rows_C := cTile_apply m c t
  upper k q := (wTile_apply m c t _ q).trans (stacked_upper m c k q)
  lower k q := (wTile_apply m c t _ q).trans (stacked_lower m c k q)
  bias q := (bTile_apply m c t q).trans (biasRow_apply m c q)

end Cert.KernelIdeal.Rows

end
-- ==== Proof.LstmArrays.lean ====
/-
  The run of the kernel, read: its two result arrays end at the cell's new state and new hidden state.

  What grid point `t` writes back to either result is the body's output tile, which is the specification's array read
  through rows `1024 t … 1024 t + 1023`; row `r` lies in the block of point `r / 1024`, so the `32` blocks cover each
  result array and it ends holding the specification's array whole.
-/
import proofs.«136453_j16346645529184_2_alg».proof.Proof.TileRows

noncomputable section

namespace Cert.KernelIdeal.Rows

open Cert.KernelIdeal Cert.KernelIdeal.Gen Cert.KernelIdeal.Tile Idealize.ShloMosaic Idealize.ShloMosaic.TcCoe Idealize.SL.Sem
open Idealize.ShloMosaic.ValueIdx
open Idealize.ShloMosaic.Pipeline (Dat)
open Cert.LstmSpec

variable (m : (ℓ : Loc nD τ sig) → Buf (Elt Ideal) ℓ) (ρ : Dev nD → PrngReg)

/-- The specification's two arrays of the launch contents on core `c`. -/
abbrev cellOf (c : Dev nD) : Act := cellNew (argx m c) (argC m c) (argh m c) (argWx m c) (argbx m c) (argWh m c) (argbh m c)
abbrev hiddenOf (c : Dev nD) : Act := hiddenNew (argx m c) (argC m c) (argh m c) (argWx m c) (argbx m c) (argWh m c) (argbh m c)

/-! ## What each point writes back -/

/-- Point `t` writes back rows `1024 t …` of the new cell state. -/
theorem cellFlushed (c : Dev nD) (t : Fin cfg0.N) :
    (dats m 0 c).flushed 5 t = ((cfg0.win 5).blk t).view.read (Elt Ideal) (cellOf m c) := by
  obtain ⟨-, -, -, -, -, -, -, -, -, -, e0, e1, -⟩ := index_facts t
  rw [Value.flushed5]
  refine funext fun (y : S1024x512.Idx) => ?_
  obtain ⟨p, j, rfl⟩ : ∃ (p : Fin 1024) (j : Fin 512), y = ix2 p j := ⟨y 0, y 1, eq_ix2 y⟩
  show out0_5 (iblk m c 0 t) (iblk m c 1 t) (iblk m c 2 t) (iblk m c 3 t) (iblk m c 4 t) (ix2 p j)
    = cellOf m c (((cfg0.win 5).blk t).view.emb (ix2 p j))
  refine (cellOut_apply (iblk m c 0 t) (iblk m c 1 t) (iblk m c 2 t) (iblk m c 3 t) (iblk m c 4 t) (ix2 p j)).trans
    ((cell_tile (tilesOf m c t) p j).trans ?_)
  show cellAt _ _ _ _ _ _ _ _ _ = cellAt _ _ _ _ _ _ _ ((((cfg0.win 5).blk t).view.emb (ix2 p j)) 0) ((((cfg0.win 5).blk t).view.emb (ix2 p j)) 1)
  congr 1 <;> apply Fin.ext
  · show 1024 * t.val + p.val = win0_5.index t 0 * 1024 + 1 * p.val
    rw [e0]; omega
  · show j.val = win0_5.index t 1 * 512 + 1 * j.val
    rw [e1]; omega

/-- Point `t` writes back rows `1024 t …` of the new hidden state. -/
theorem hiddenFlushed (c : Dev nD) (t : Fin cfg0.N) :
    (dats m 0 c).flushed 6 t = ((cfg0.win 6).blk t).view.read (Elt Ideal) (hiddenOf m c) := by
  obtain ⟨-, -, -, -, -, -, -, -, -, -, -, -, e0, e1⟩ := index_facts t
  rw [Value.flushed6]
  refine funext fun (y : S1024x512.Idx) => ?_
  obtain ⟨p, j, rfl⟩ : ∃ (p : Fin 1024) (j : Fin 512), y = ix2 p j := ⟨y 0, y 1, eq_ix2 y⟩
  show out0_6 (iblk m c 0 t) (iblk m c 1 t) (iblk m c 2 t) (iblk m c 3 t) (iblk m c 4 t) (ix2 p j)
    = hiddenOf m c (((cfg0.win 6).blk t).view.emb (ix2 p j))
  refine (hiddenOut_apply (iblk m c 0 t) (iblk m c 1 t) (iblk m c 2 t) (iblk m c 3 t) (iblk m c 4 t) (ix2 p j)).trans
    ((hidden_tile (tilesOf m c t) p j).trans ?_)
  show hiddenAt _ _ _ _ _ _ _ _ _ = hiddenAt _ _ _ _ _ _ _ ((((cfg0.win 6).blk t).view.emb (ix2 p j)) 0) ((((cfg0.win 6).blk t).view.emb (ix2 p j)) 1)
  congr 1 <;> apply Fin.ext
  · show 1024 * t.val + p.val = win0_6.index t 0 * 1024 + 1 * p.val
    rw [e0]; omega
  · show j.val = win0_6.index t 1 * 512 + 1 * j.val
    rw [e1]; omega

/-! ## The row blocks cover the arrays -/

/-- An index of the first result is in point `t`'s block iff each coordinate is in the block's range. -/
theorem mem_cellBlk (t : Fin cfg0.N) (i : S32768x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v5_0).slice (win0_5.rect t)).set ↔ _
  rw [View.set_slice_whole, Rect.mem_set_unit]
  exact Iff.rfl

theorem mem_hiddenBlk (t : Fin cfg0.N) (i : S32768x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v5_1).slice (win0_6.rect t)).set ↔ _
  rw [View.set_slice_whole, Rect.mem_set_unit]
  exact Iff.rfl

/-- The point whose block holds row `r`: `r / 1024`. -/
theorem point_of_row (i : S32768x512.Idx) : ∃ t : Fin cfg0.N, t.val = (i 0).val / 1024 :=
  ⟨⟨(i 0).val / 1024, lt_of_lt_of_eq (by have hi : (i 0).val < 32768 := (i 0).isLt; show (i 0).val / 1024 < 32; omega) N_0.symm⟩, rfl⟩

theorem cell_cover (i : S32768x512.Idx) : ∃ t : Fin cfg0.N, (cfg0.win 5).flush t = true ∧ i ∈ ((cfg0.win 5).blk t).view.set := by
  have hi0 : (i 0).val < 32768 := (i 0).isLt
  have hi1 : (i 1).val < 512 := (i 1).isLt
  obtain ⟨t, ht⟩ := point_of_row i
  obtain ⟨-, -, -, -, -, -, -, -, -, -, e0, e1, -⟩ := index_facts t
  refine ⟨t, flush0_5 t, ?_⟩
  rw [mem_cellBlk]
  intro a
  match a with
  | ⟨0, _⟩ =>
    show win0_5.index t 0 * 1024 ≤ (i 0).val ∧ (i 0).val < win0_5.index t 0 * 1024 + 1024
    rw [e0, ht]; omega
  | ⟨1, _⟩ =>
    show win0_5.index t 1 * 512 ≤ (i 1).val ∧ (i 1).val < win0_5.index t 1 * 512 + 512
    rw [e1]; omega

theorem hidden_cover (i : S32768x512.Idx) : ∃ t : Fin cfg0.N, (cfg0.win 6).flush t = true ∧ i ∈ ((cfg0.win 6).blk t).view.set := by
  have hi0 : (i 0).val < 32768 := (i 0).isLt
  have hi1 : (i 1).val < 512 := (i 1).isLt
  obtain ⟨t, ht⟩ := point_of_row i
  obtain ⟨-, -, -, -, -, -, -, -, -, -, -, -, e0, e1⟩ := index_facts t
  refine ⟨t, flush0_6 t, ?_⟩
  rw [mem_hiddenBlk]
  intro a
  match a with
  | ⟨0, _⟩ =>
    show win0_6.index t 0 * 1024 ≤ (i 0).val ∧ (i 0).val < win0_6.index t 0 * 1024 + 1024
    rw [e0, ht]; omega
  | ⟨1, _⟩ =>
    show win0_6.index t 1 * 512 ≤ (i 1).val ∧ (i 1).val < win0_6.index t 1 * 512 + 512
    rw [e1]; omega

/-! ## The arrays after the run -/

theorem cellFinal (c : Dev nD) : (dats m 0 c).arrAt 5 cfg0.N = cellOf m c :=
  (dats m 0 c).arrAt_eq_of_cover 5 (cellOf m c) (fun t _ => cellFlushed m c t) cell_cover

theorem hiddenFinal (c : Dev nD) : (dats m 0 c).arrAt 6 cfg0.N = hiddenOf m c :=
  (dats m 0 c).arrAt_eq_of_cover 6 (hiddenOf m c) (fun t _ => hiddenFlushed m c t) hidden_cover

/-- Every weakly fair execution of the kernel's program terminates with the two results at the new cell state and the
    new hidden state of the launch contents, the seven arguments unchanged. -/
theorem run : θ_run defs (onTc (τ := τ) (main (F := Ideal))) ⟨m, fun _ => 0, ρ⟩ fun r => ∀ c : Dev nD,
      r.2.mem ((c : Thread nD τ).loc main_v5_0) = cellOf m c
      ∧ r.2.mem ((c : Thread nD τ).loc main_v5_1) = hiddenOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (cellFinal m c), (h c).2.1.trans (hiddenFinal m c), (h c).2.2⟩)
    (Value.run_blocks m ρ)

end Cert.KernelIdeal.Rows

end
-- ==== Proof.RefIsLstm.lean ====
/-
  The reference, read entry by entry: its two results are the cell's new state and new hidden state.

  The reference adds, in this order, the product `x · Wx`, the bias `bx` repeated down the rows, the product `h · Wh`
  and the bias `bh`: at `(r, c)` that is the pre-activation of the specification term for term. It then cuts the four
  gates out as column blocks `[0, 512)`, `[512, 1024)`, `[1024, 1536)`, `[1536, 2048)`, writes the logistic function as
  `1 / (1 + e^(-z))` with the literal one, and combines the gates with the old cell state.
-/
import proofs.«136453_j16346645529184_2_alg».proof.Proof.Gen.ReferenceIdeal.Read
import proofs.«136453_j16346645529184_2_alg».proof.Proof.LstmSpec

noncomputable section

namespace Cert.ReferenceIdeal.RefValue

open Cert.ReferenceIdeal Cert.ReferenceIdeal.Gen Cert.ReferenceIdeal.Read Idealize.ShloMosaic Idealize.ShloMosaic.ValueIdx
open Cert.LstmSpec

/-! ## The operand indices of the two products and of the bias rows, by coordinates -/

theorem lidx_xw (r : Fin 32768) (c : Fin 2048) (k : Fin 512) : lidx_main_v0 (ix2 r c) k = ix2 r k :=
  funext fun a => by match a with | ⟨0, _⟩ => rfl | ⟨1, _⟩ => rfl
theorem ridx_xw (r : Fin 32768) (c : Fin 2048) (k : Fin 512) : ridx_main_v0 (ix2 r c) k = ix2 k c :=
  funext fun a => by match a with | ⟨0, _⟩ => rfl | ⟨1, _⟩ => rfl
theorem lidx_hw (r : Fin 32768) (c : Fin 2048) (k : Fin 512) : lidx_main_v4 (ix2 r c) k = ix2 r k :=
  funext fun a => by match a with | ⟨0, _⟩ => rfl | ⟨1, _⟩ => rfl
theorem ridx_hw (r : Fin 32768) (c : Fin 2048) (k : Fin 512) : ridx_main_v4 (ix2 r c) k = ix2 k c :=
  funext fun a => by match a with | ⟨0, _⟩ => rfl | ⟨1, _⟩ => rfl
theorem idx_bx (r : Fin 32768) (c : Fin 2048) : idx_main_v1 (idx_main_v2 (ix2 r c)) = ix1 c :=
  funext fun a => by match a with | ⟨0, _⟩ => rfl
theorem idx_bh (r : Fin 32768) (c : Fin 2048) : idx_main_v6 (idx_main_v7 (ix2 r c)) = ix1 c :=
  funext fun a => by match a with | ⟨0, _⟩ => rfl

/-- The sum of the four terms at `(r, c)` is the pre-activation. -/
theorem preact_apply (x h : Act) (Wx : Wgt) (bx : Bias) (Wh : Wgt) (bh : Bias) (r : Fin 32768) (c : Fin 2048) :
    val_main_v8 (F := Ideal) x h Wx bx Wh bh (ix2 r c) = gate x h Wx Wh bx bh r c := by
  rw [val_main_v8_apply, val_main_v5_apply, val_main_v3_apply, val_main_v0_apply, val_main_v4_apply, val_main_v2_apply,
    val_main_v1_apply, val_main_v7_apply, val_main_v6_apply]
  simp only [lidx_xw, ridx_xw, lidx_hw, ridx_hw, idx_bx, idx_bh]
  rfl

/-! ## The four column blocks -/

theorem idx_gate0 (r : Fin 32768) (j : Fin 512) : idx_main_v9 (ix2 r j) = ix2 r (col 0 (by decide) j) :=
  funext fun a => by match a with | ⟨0, _⟩ => rfl | ⟨1, _⟩ => exact Fin.ext (Nat.zero_add _).symm
theorem idx_gate1 (r : Fin 32768) (j : Fin 512) : idx_main_v10 (ix2 r j) = ix2 r (col 512 (by decide) j) :=
  funext fun a => by match a with | ⟨0, _⟩ => rfl | ⟨1, _⟩ => rfl
theorem idx_gate2 (r : Fin 32768) (j : Fin 512) : idx_main_v11 (ix2 r j) = ix2 r (col 1024 (by decide) j) :=
  funext fun a => by match a with | ⟨0, _⟩ => rfl | ⟨1, _⟩ => rfl
theorem idx_gate3 (r : Fin 32768) (j : Fin 512) : idx_main_v12 (ix2 r j) = ix2 r (col 1536 (by decide) j) :=
  funext fun a => by match a with | ⟨0, _⟩ => rfl | ⟨1, _⟩ => rfl

/-- The reference's first result at `(r, j)` is the new cell state. -/
theorem cell_apply (x C h : Act) (Wx : Wgt) (bx : Bias) (Wh : Wgt) (bh : Bias) (r : Fin 32768) (j : Fin 512) :
    val_main_v34 (F := Ideal) x C h Wx bx Wh bh (ix2 r j) = cellAt x C h Wx bx Wh bh r j := by
  rw [val_main_v34_apply, val_main_v32_apply, val_main_v33_apply, val_main_v24_apply, val_main_v18_apply, val_main_v23_apply,
    val_main_v17_apply, val_main_cst_2_apply, val_main_cst_0_apply, val_main_v22_apply, val_main_v16_apply, val_main_v21_apply,
    val_main_v15_apply, val_main_cst_1_apply, val_main_cst_apply, val_main_v20_apply, val_main_v14_apply, val_main_v19_apply,
    val_main_v13_apply, val_main_v31_apply, val_main_v10_apply, val_main_v9_apply, val_main_v12_apply,
    idx_gate0, idx_gate1, idx_gate3, preact_apply, preact_apply, preact_apply]
  simp only [Ideal.addf_def, Ideal.mulf_def, Ideal.hostDivf_def, Ideal.hostUnary_exp_def, Ideal.hostNegf_def, Ideal.negf_def,
    Ideal.hostUnary_tanh_def, Ideal.ofBits_def, logistic_expanded]
  rfl

/-- The reference's second result at `(r, j)` is the new hidden state. -/
theorem hidden_apply (x C h : Act) (Wx : Wgt) (bx : Bias) (Wh : Wgt) (bh : Bias) (r : Fin 32768) (j : Fin 512) :
    val_main_v36 (F := Ideal) x C h Wx bx Wh bh (ix2 r j) = hiddenAt x C h Wx bx Wh bh r j := by
  rw [val_main_v36_apply, val_main_v35_apply, cell_apply, val_main_v30_apply, val_main_v29_apply, val_main_cst_4_apply,
    val_main_v28_apply, val_main_v27_apply, val_main_cst_3_apply, val_main_v26_apply, val_main_v25_apply, val_main_v11_apply,
    idx_gate2, preact_apply]
  simp only [Ideal.addf_def, Ideal.mulf_def, Ideal.hostDivf_def, Ideal.hostUnary_exp_def, Ideal.hostNegf_def, Ideal.negf_def,
    Ideal.hostUnary_tanh_def, Ideal.ofBits_def, logistic_expanded]
  rfl

/-- As arrays. -/
theorem cell_eq (x C h : Act) (Wx : Wgt) (bx : Bias) (Wh : Wgt) (bh : Bias) :
    val_main_v34 (F := Ideal) x C h Wx bx Wh bh = cellNew x C h Wx bx Wh bh := by
  funext i
  obtain ⟨r, j, rfl⟩ : ∃ (r : Fin 32768) (j : Fin 512), i = ix2 r j := ⟨i 0, i 1, eq_ix2 i⟩
  exact cell_apply x C h Wx bx Wh bh r j

theorem hidden_eq (x C h : Act) (Wx : Wgt) (bx : Bias) (Wh : Wgt) (bh : Bias) :
    val_main_v36 (F := Ideal) x C h Wx bx Wh bh = hiddenNew x C h Wx bx Wh bh := by
  funext i
  obtain ⟨r, j, rfl⟩ : ∃ (r : Fin 32768) (j : Fin 512), i = ix2 r j := ⟨i 0, i 1, eq_ix2 i⟩
  exact hidden_apply x C h Wx bx Wh bh r j

end Cert.ReferenceIdeal.RefValue

end
-- ==== Proof.lean ====
/-
  The kernel computes one step of a long short-term memory cell, and so does the reference.

  Both programs take `x, C, h : [32768, 512]`, `Wx, Wh : [512, 2048]`, `bx, bh : [2048]` and return the new cell state
  and the new hidden state. With `z = x·Wx + bx + h·Wh + bh` the pre-activation of the four gates and `σ` the logistic
  function, `C' = σ(z_f) · C + σ(z_i) · tanh(z_g)` and `h' = σ(z_o) · tanh(C')`, the gates being the column blocks of `z`
  in the order `i, f, o, g`.

  The reference forms `z` as written, from two matrix products of contraction length `512`. The kernel works on `32`
  row blocks of `1024` rows: it puts the block of `x` and the block of `h` side by side, multiplies by `Wx` stacked
  over `Wh` — one product of contraction length `1024` — and adds the row `bx + bh`. Over the extended reals the two
  are the same sum in another grouping: addition there is commutative and associative, also at the infinities, so the
  equality of the results needs nothing of the precondition. The kernel's logistic function and the reference's
  `1 / (1 + e^(-z))` are one function of an extended real, and rounding to a narrower float format is the identity there.

  The three frames are the generated frame certificates of the two kernel programs and the reference's generated run with
  its results dropped; the kernel's idealization rewrote no operation, so it has nothing to preserve beyond its text. The
  equality of the results sets the kernel's run, read from its row blocks to the whole arrays (`Rows.run`), beside the
  reference's run read entry by entry (`RefValue.cell_eq`, `RefValue.hidden_eq`): both are the specification's arrays of
  the same arguments.
-/
import proofs.«136453_j16346645529184_2_alg».proof.Defs
import proofs.«136453_j16346645529184_2_alg».proof.Proof.Gen.Kernel
import proofs.«136453_j16346645529184_2_alg».proof.Proof.Gen.Kernel.Skeleton
import proofs.«136453_j16346645529184_2_alg».proof.Proof.Gen.Kernel.Launch
import proofs.«136453_j16346645529184_2_alg».proof.Proof.Gen.Kernel.Points
import proofs.«136453_j16346645529184_2_alg».proof.Proof.Gen.Kernel.Frame
import proofs.«136453_j16346645529184_2_alg».proof.Proof.Gen.KernelIdeal
import proofs.«136453_j16346645529184_2_alg».proof.Proof.Gen.KernelIdeal.Skeleton
import proofs.«136453_j16346645529184_2_alg».proof.Proof.Gen.KernelIdeal.Launch
import proofs.«136453_j16346645529184_2_alg».proof.Proof.Gen.KernelIdeal.Points
import proofs.«136453_j16346645529184_2_alg».proof.Proof.Gen.KernelIdeal.Frame
import proofs.«136453_j16346645529184_2_alg».proof.Proof.Gen.ReferenceIdeal
import proofs.«136453_j16346645529184_2_alg».proof.Proof.Gen.KernelIdeal.Value
import proofs.«136453_j16346645529184_2_alg».proof.Proof.Gen.ReferenceIdeal.Run
import proofs.«136453_j16346645529184_2_alg».proof.Proof.Gen.ReferenceIdeal.Read
import proofs.«136453_j16346645529184_2_alg».proof.Proof.Gen.Pre_finite_inputs
import proofs.«136453_j16346645529184_2_alg».proof.Proof.LstmArrays
import proofs.«136453_j16346645529184_2_alg».proof.Proof.RefIsLstm
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the seven arguments both programs end with the new cell state and the new hidden state
    of those arguments. -/
theorem algebraic : Cert.algebraic_KernelIdeal_ReferenceIdeal := by
  intro m ρ m' ρ' _ hagree
  refine ⟨fun c => Cert.KernelIdeal.Rows.cellOf m c, fun c => Cert.KernelIdeal.Rows.hiddenOf m c,
    Cert.KernelIdeal.Rows.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · refine (Cert.ReferenceIdeal.RefValue.cell_eq _ _ _ _ _ _ _).trans ?_
    rw [a0, a1, a2, a3, a4, a5, a6]
  · refine (Cert.ReferenceIdeal.RefValue.hidden_eq _ _ _ _ _ _ _).trans ?_
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
